-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10 : Shape := ⟨2, ![8192, 10]⟩
abbrev S10x8192 : Shape := ⟨2, ![10, 8192]⟩
abbrev S_ : Shape := ⟨0, ![]⟩

class Facts : Prop where
  bcast_S_S8192x10 : S_.BroadcastsInDim S8192x10 (![] : Fin 0 → Fin S8192x10.rank)
  reducesTo_S8192x10_S_d0_1 : S8192x10.ReducesTo [0, 1] S_
  h_S_ : 0 < S_.numel
  bcast_S_S10x8192 : S_.BroadcastsInDim S10x8192 (![] : Fin 0 → Fin S10x8192.rank)
  reducesTo_S10x8192_S_d0_1 : S10x8192.ReducesTo [0, 1] S_

variable [Facts]

def fn {F : FTy → Type} [FloatOps F] (main_arg0 : FVec F S8192x10 .f32) (main_arg1 : FVec F S10x8192 .f32) : IVec S_ 1 :=
  let main_v0 : FVec F S8192x10 .f32 := Host.absf main_arg0
  let main_cst : FVec F S_ .f32 := constant S_ .f32 0x7F800000#32
  let main_v1 : FVec F S8192x10 .f32 := broadcastInDim S8192x10 ![] bcast_S_S8192x10 main_cst
  let main_v2 : IVec S8192x10 1 := cmpf .olt main_v0 main_v1
  let main_c : IVec S_ 1 := constantI S_ 1 1#1
  let main_v3 : IVec S_ 1 := (fun x v => Host.reduce IntOp.andi x v reducesTo_S8192x10_S_d0_1 h_S_) main_v2 main_c
  let main_v4 : FVec F S10x8192 .f32 := Host.absf main_arg1
  let main_cst_0 : FVec F S_ .f32 := constant S_ .f32 0x7F800000#32
  let main_v5 : FVec F S10x8192 .f32 := broadcastInDim S10x8192 ![] bcast_S_S10x8192 main_cst_0
  let main_v6 : IVec S10x8192 1 := cmpf .olt main_v4 main_v5
  let main_c_1 : IVec S_ 1 := constantI S_ 1 1#1
  let main_v7 : IVec S_ 1 := (fun x v => Host.reduce IntOp.andi x v reducesTo_S10x8192_S_d0_1 h_S_) main_v6 main_c_1
  let main_v8 : IVec S_ 1 := andi main_v3 main_v7
  main_v8
-- ==== Kernel.lean ====
abbrev S8192x10 : Shape := ⟨2, ![8192, 10]⟩
abbrev S10x8192 : Shape := ⟨2, ![10, 8192]⟩
abbrev S8192x8192 : Shape := ⟨2, ![8192, 8192]⟩
abbrev S256x10 : Shape := ⟨2, ![256, 10]⟩
abbrev S256x8192 : Shape := ⟨2, ![256, 8192]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x10, .f32⟩
  | .hbm, ⟨1, _⟩ => ⟨S10x8192, .f32⟩
  | .hbm, ⟨2, _⟩ => ⟨S8192x8192, .f32⟩
  | .local _ .vmem, ⟨0, _⟩ => ⟨S256x10, .f32⟩
  | .local _ .vmem, ⟨1, _⟩ => ⟨S256x10, .f32⟩
  | .local _ .vmem, ⟨2, _⟩ => ⟨S10x8192, .f32⟩
  | .local _ .vmem, ⟨3, _⟩ => ⟨S256x8192, .f32⟩
  | .local _ .vmem, ⟨4, _⟩ => ⟨S256x8192, .f32⟩
  | _, _ => ⟨S8192x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x10_S256x10_0_0 : ∀ a, (![0, 0] : Fin 2 → Nat) a + S256x10.size a ≤ S256x10.size a
  h_S256x10 : 0 < S256x10.numel
  inb_S10x8192_S10x8192_0_0 : ∀ a, (![0, 0] : Fin 2 → Nat) a + S10x8192.size a ≤ S10x8192.size a
  h_S10x8192 : 0 < S10x8192.numel
  reduces_S256x8192_S256 : S256x8192.Reduces [1] S256
  shapeCasts_S256_S256x1 : S256.ShapeCasts S256x1
  broadcasts_S256x1_S256x8192 : S256x1.Broadcasts S256x8192
  inb_S256x8192_S256x8192_0_0 : ∀ a, (![0, 0] : Fin 2 → Nat) a + S256x8192.size a ≤ S256x8192.size a
  h_S256x8192 : 0 < S256x8192.numel
  dot_S256x10_S10x8192_S256x8192_1_0_0_1_n_n_wf : DotDims.WF S256x10 S10x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10.size a ≤ S8192x10.size a
  hwx0_0 : ∀ i : grid0.Coords, EltTy.bits .f32 = 32 ∨ (Rect.block (s := S8192x10) S256x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x8192.size a ≤ S10x8192.size a
  hwx0_1 : ∀ i : grid0.Coords, EltTy.bits .f32 = 32 ∨ (Rect.block (s := S10x8192) S10x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

def dot_S256x10_S10x8192_S256x8192_1_0_0_1_n_n : DotDims S256x10 S10x8192 S256x8192 where
  lhsContracting := [1]
  rhsContracting := [0]
  lhsNonContracting := [0]
  rhsNonContracting := [1]
  lhsBatch := []
  rhsBatch := []
  wf := dot_S256x10_S10x8192_S256x8192_1_0_0_1_n_n_wf

abbrev win0_0 : Pipeline.Window sig grid0 :=
  Pipeline.Window.ofSpec (Memref.whole main_arg0) S256x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x10 : Shape := ⟨2, ![8192, 10]⟩
abbrev S10x8192 : Shape := ⟨2, ![10, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x10, .f32⟩
  | .hbm, ⟨1, _⟩ => ⟨S10x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | _, _ => ⟨S8192x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x10_S10x8192_S8192x8192_1_0_0_1_n_n_wf : DotDims.WF S8192x10 S10x8192 S8192x8192 [1] [0] [0] [1] [] []

variable [Facts₀]

def dot_S8192x10_S10x8192_S8192x8192_1_0_0_1_n_n : DotDims S8192x10 S10x8192 S8192x8192 where
  lhsContracting := [1]
  rhsContracting := [0]
  lhsNonContracting := [0]
  rhsNonContracting := [1]
  lhsBatch := []
  rhsBatch := []
  wf := dot_S8192x10_S10x8192_S8192x8192_1_0_0_1_n_n_wf

class Facts : Prop extends Facts₀ where

variable [Facts]
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.KernelRow.lean ====
import proofs.«112167_j73349451481729_1_alg».proof.Proof.Gen.KernelIdeal.Skeleton
import proofs.«112167_j73349451481729_1_alg».proof.Proof.LibKeepdims
import Idealize.ShloMosaic.Lib.ValueIdx
import Idealize.ShloMosaic.PureOps.Ideal.Laws

/-!
# What one grid point computes, entry by entry

A grid point holds a block `x0` of 256 rows of the first argument and the whole second argument `x1`. Its
result at `(p, q)` is

  exp (max (Σ_k x0 (p, k) · x1 (k, q)) 0) / Σ_q' exp (max (Σ_k x0 (p, k) · x1 (k, q')) 0):

the matrix product into a zero accumulator is the plain sum over the ten contracted coordinates, the lane sum
of the exponentials over the 8192 columns is kept as a column `[256, 1]` and spread back over the columns, so the
denominator at `(p, q)` is row `p`'s sum whatever `q` is.
-/

noncomputable section

namespace Cert.KernelIdeal.Row

open Cert.KernelIdeal Cert.KernelIdeal.Gen Idealize.ShloMosaic Idealize.ShloMosaic.ValueIdx

/-! ## The block product at an index -/

theorem lhs_0 (i : S256x8192.Idx) (q : dot_S256x10_S10x8192_S256x8192_1_0_0_1_n_n.contr.Idx) :
    (dot_S256x10_S10x8192_S256x8192_1_0_0_1_n_n.lhsIdx i q 0).val = (i 0).val := by
  unfold DotDims.lhsIdx
  rw [dif_neg (show ¬(0 : Fin S256x10.rank) ∈ dot_S256x10_S10x8192_S256x8192_1_0_0_1_n_n.lhsBatch by decide), dif_pos (show (0 : Fin S256x10.rank) ∈ dot_S256x10_S10x8192_S256x8192_1_0_0_1_n_n.lhsNonContracting by decide)]
  rfl

theorem lhs_1 (i : S256x8192.Idx) (q : dot_S256x10_S10x8192_S256x8192_1_0_0_1_n_n.contr.Idx) :
    (dot_S256x10_S10x8192_S256x8192_1_0_0_1_n_n.lhsIdx i q 1).val = (q ⟨0, by decide⟩).val :=
  dot_S256x10_S10x8192_S256x8192_1_0_0_1_n_n.lhsIdx_val_of_single rfl i q

theorem rhs_0 (i : S256x8192.Idx) (q : dot_S256x10_S10x8192_S256x8192_1_0_0_1_n_n.contr.Idx) :
    (dot_S256x10_S10x8192_S256x8192_1_0_0_1_n_n.rhsIdx i q 0).val = (q ⟨0, by decide⟩).val :=
  dot_S256x10_S10x8192_S256x8192_1_0_0_1_n_n.rhsIdx_val_of_single rfl i q

theorem rhs_1 (i : S256x8192.Idx) (q : dot_S256x10_S10x8192_S256x8192_1_0_0_1_n_n.contr.Idx) :
    (dot_S256x10_S10x8192_S256x8192_1_0_0_1_n_n.rhsIdx i q 1).val = (i 1).val := by
  unfold DotDims.rhsIdx
  rw [dif_neg (show ¬(1 : Fin S10x8192.rank) ∈ dot_S256x10_S10x8192_S256x8192_1_0_0_1_n_n.rhsBatch by decide), dif_pos (show (1 : Fin S10x8192.rank) ∈ dot_S256x10_S10x8192_S256x8192_1_0_0_1_n_n.rhsNonContracting by decide)]
  rfl

/-- The product of a [256, 10] block and a [10, 8192] block into a zero accumulator, at `(p, q)`: the sum over
    the ten contracted coordinates of row `p` of the left against column `q` of the right. -/
theorem matmul_at (x0 : FVec Ideal S256x10 .f32) (x1 : FVec Ideal S10x8192 .f32) (p : Fin 256) (q : Fin 8192) :
    matmul dot_S256x10_S10x8192_S256x8192_1_0_0_1_n_n none x0 x1 (constant (F := Ideal) S256x8192 .f32 0x00000000#32) (ix2 p q)
      = ∑ k : Fin 10, x0 (ix2 p k) * x1 (ix2 k q) := by
  refine (Ideal.matmul_constant_zero_apply dot_S256x10_S10x8192_S256x8192_1_0_0_1_n_n none x0 x1 (ix2 p q)).trans ?_
  rw [← Equiv.sum_comp (contrEquiv1 dot_S256x10_S10x8192_S256x8192_1_0_0_1_n_n 10 rfl rfl).symm]
  refine Finset.sum_congr rfl fun k _ => ?_
  have hk := contrEquiv1_symm_val dot_S256x10_S10x8192_S256x8192_1_0_0_1_n_n 10 rfl rfl k
  have el : dot_S256x10_S10x8192_S256x8192_1_0_0_1_n_n.lhsIdx (ix2 p q) ((contrEquiv1 dot_S256x10_S10x8192_S256x8192_1_0_0_1_n_n 10 rfl rfl).symm k) = ix2 p k := funext fun a => Fin.ext (by
    match a with
    | ⟨0, _⟩ => exact lhs_0 _ _
    | ⟨1, _⟩ => exact (lhs_1 _ _).trans hk)
  have er : dot_S256x10_S10x8192_S256x8192_1_0_0_1_n_n.rhsIdx (ix2 p q) ((contrEquiv1 dot_S256x10_S10x8192_S256x8192_1_0_0_1_n_n 10 rfl rfl).symm k) = ix2 k q := funext fun a => Fin.ext (by
    match a with
    | ⟨0, _⟩ => exact (rhs_0 _ _).trans hk
    | ⟨1, _⟩ => exact rhs_1 _ _)
  rw [el, er]

/-! ## The exponentials of the rectified product -/

/-- The block of exponentials `exp (max (x0 · x1) 0)`: numerator of every entry, and what each row sums. -/
def expScores {F : FTy → Type} [FloatOps F] (x0 : Vec F S256x10 .f32) (x1 : Vec F S10x8192 .f32) : FVec F S256x8192 .f32 :=
  have cst : FVec F S256x8192 .f32 := constant S256x8192 .f32 0x00000000#32
  have v2 : FVec F S256x8192 .f32 := matmul dot_S256x10_S10x8192_S256x8192_1_0_0_1_n_n none x0 x1 cst
  have cst_3 : F .f32 := Scalar.ofBits .f32 0x00000000#32
  exp (maximumf v2 (broadcast S256x8192 cst_3))

theorem expScores_apply (x0 : FVec Ideal S256x10 .f32) (x1 : FVec Ideal S10x8192 .f32) (p : Fin 256) (q : Fin 8192) :
    expScores (F := Ideal) x0 x1 (ix2 p q)
      = Ideal.exp (max (∑ k : Fin 10, x0 (ix2 p k) * x1 (ix2 k q)) (Ideal.ofBits .f32 0x00000000#32)) := by
  show Ideal.exp (max (matmul dot_S256x10_S10x8192_S256x8192_1_0_0_1_n_n none x0 x1 (constant (F := Ideal) S256x8192 .f32 0x00000000#32) (ix2 p q))
    (Ideal.ofBits .f32 0x00000000#32)) = _
  rw [matmul_at]

/-! ## The stored value -/

/-- The stored block is the exponentials divided by their row sums, the sums kept as a column and spread over
    the columns. -/
theorem pay_eq {F : FTy → Type} [FloatOps F] (x0 : Vec F S256x10 .f32) (x1 : Vec F S10x8192 .f32) :
    k0_pay1 (F := F) x0 x1
      = divf (expScores x0 x1)
          (broadcastTo S256x8192
            (shapeCast S256x1
              (multiReduction .add [1] S256 (expScores x0 x1) 0x00000000#32 Facts₀.reduces_S256x8192_S256 (.inl rfl) rfl)
              Facts₀.shapeCasts_S256_S256x1)
            Facts₀.broadcasts_S256x1_S256x8192) := rfl

/-- The stored block at `(p, q)`. -/
theorem pay_apply (x0 : FVec Ideal S256x10 .f32) (x1 : FVec Ideal S10x8192 .f32) (p : Fin 256) (q : Fin 8192) :
    k0_pay1 (F := Ideal) x0 x1 (ix2 p q)
      = Ideal.div (Ideal.exp (max (∑ k : Fin 10, x0 (ix2 p k) * x1 (ix2 k q)) (Ideal.ofBits .f32 0x00000000#32)))
          (∑ q' : Fin 8192, Ideal.exp (max (∑ k : Fin 10, x0 (ix2 p k) * x1 (ix2 k q')) (Ideal.ofBits .f32 0x00000000#32))) := by
  refine (congrFun (pay_eq (F := Ideal) x0 x1) (ix2 p q)).trans ?_
  refine (divf_apply _ _ _).trans ?_
  refine congrArg₂ Ideal.div (expScores_apply x0 x1 p q) ?_
  refine (Cert.Keepdims.broadcastTo_a1_ab_apply (a := 256) (b := 8192) _ _ p q).trans ?_
  refine (Cert.Keepdims.shapeCast_a_a1_apply (a := 256) _ _ p 0).trans ?_
  refine (Ideal.multiReduction_add_single (expScores (F := Ideal) x0 x1) 0x00000000#32 Facts₀.reduces_S256x8192_S256 (.inl rfl) rfl (ix1 p)).trans ?_
  refine Finset.sum_congr rfl fun q' _ => ?_
  have hl : Facts₀.reduces_S256x8192_S256.lift (ix1 p) q' = ix2 p q' := funext fun a => Fin.ext (by
    match a with
    | ⟨0, _⟩ => rfl
    | ⟨1, _⟩ => rfl)
  rw [hl]
  exact expScores_apply x0 x1 p q'

end Cert.KernelIdeal.Row

end
-- ==== Proof.Spec.lean ====
import Idealize.ShloMosaic.PureOps.Ideal
import Idealize.ShloMosaic.Lib.ValueIdx

/-!
# The result as one function of the two argument arrays

For `A : [8192, 10]` and `B : [10, 8192]` over the extended reals, the score at `(r, c)` is the rectified
inner product `max (Σ_k A (r, k) · B (k, c)) 0`, and the result at `(r, c)` is the row softmax of the scores
without any shift: `exp (score r c) / Σ_c' exp (score r c')`.
-/

noncomputable section

namespace Cert.Softmax

open Idealize.ShloMosaic Idealize.ShloMosaic.ValueIdx

/-- The rectified inner product of row `r` of `A` and column `c` of `B`. -/
def score (A : (⟨2, ![8192, 10]⟩ : Shape).Idx → EReal) (B : (⟨2, ![10, 8192]⟩ : Shape).Idx → EReal)
    (r c : Fin 8192) : EReal :=
  max (∑ k : Fin 10, A (ix2 r k) * B (ix2 k c)) (Ideal.ofBits .f32 0x00000000#32)

/-- The softmax of row `r` of the scores, at column `c`. -/
def rowSoftmax (A : (⟨2, ![8192, 10]⟩ : Shape).Idx → EReal) (B : (⟨2, ![10, 8192]⟩ : Shape).Idx → EReal)
    (r c : Fin 8192) : EReal :=
  Ideal.div (Ideal.exp (score A B r c)) (∑ c' : Fin 8192, Ideal.exp (score A B r c'))

/-- The whole result array. -/
def G (A : (⟨2, ![8192, 10]⟩ : Shape).Idx → EReal) (B : (⟨2, ![10, 8192]⟩ : Shape).Idx → EReal) :
    (⟨2, ![8192, 8192]⟩ : Shape).Idx → EReal :=
  fun i => rowSoftmax A B ⟨(i 0).val, idx2_lt0 i⟩ ⟨(i 1).val, idx2_lt1 i⟩

theorem G_ix2 (A : (⟨2, ![8192, 10]⟩ : Shape).Idx → EReal) (B : (⟨2, ![10, 8192]⟩ : Shape).Idx → EReal)
    (r c : Fin 8192) : G A B (ix2 r c) = rowSoftmax A B r c := rfl

end Cert.Softmax

end
-- ==== Proof.KernelArray.lean ====
import proofs.«112167_j73349451481729_1_alg».proof.Proof.Gen.KernelIdeal.Value
import proofs.«112167_j73349451481729_1_alg».proof.Proof.KernelRow
import proofs.«112167_j73349451481729_1_alg».proof.Proof.Spec
import Idealize.ShloMosaic.Lib.Pipeline.Value

/-!
# From the 32 row blocks to the whole result array

Grid point `t` works on rows `256 t … 256 t + 255`: it holds those rows of the first argument, the whole second
argument, and writes those rows of the result. Row `r` of the result depends only on row `r` of the first
argument (and on all of the second), so what point `t` writes is exactly rows `256 t … 256 t + 255` of the
one function `Cert.Softmax.G` of the two whole arguments. The 32 row blocks tile the 8192 rows — row `r` lies
in block `r / 256` —, so after the run the result array is `G` of the arguments.
-/

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The three index maps over the 32 points: the first argument's and the result's block row is the point,
    their block column 0; the second argument's block is always (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, k)` of the first argument's block at point `t` is entry `(256 t + p, k)` of the argument. -/
theorem blockA_apply (c : Dev nD) (t : Fin cfg0.N) (p : Fin 256) (k : Fin 10) (r : Fin 8192)
    (hr : r.val = t.val * 256 + p.val) :
    (iblk m c 0 t : FVec Ideal S256x10 .f32) (ix2 p k) = (V m c main_arg0 : S8192x10.Idx → EReal) (ix2 r k) := by
  obtain ⟨e0, e1, -⟩ := block_index t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * p.val = r.val; rw [e0, hr]; omega
  | ⟨1, _⟩ => show win0_0.index t (1 : Fin 2) * 10 + 1 * k.val = k.val; rw [e1]; omega

/-- The second argument's block at any point is the whole argument. -/
theorem blockB_apply (c : Dev nD) (t : Fin cfg0.N) (k : Fin 10) (q : Fin 8192) :
    (iblk m c 1 t : FVec Ideal S10x8192 .f32) (ix2 k q) = (V m c main_arg1 : S10x8192.Idx → EReal) (ix2 k q) := by
  obtain ⟨-, -, e2, e3, -⟩ := block_index t
  unfold iblk
  rw [View.read_apply]
  show V m c main_arg1 _ = V m c main_arg1 _
  refine congrArg (V m c main_arg1) (funext fun a => Fin.ext ?_)
  match a with
  | ⟨0, _⟩ => show win0_1.index t (0 : Fin 2) * 10 + 1 * k.val = k.val; rw [e2]; omega
  | ⟨1, _⟩ => show win0_1.index t (1 : Fin 2) * 8192 + 1 * q.val = q.val; rw [e3]; omega

/-- One point's result entry is the whole-array function's entry, once the point's blocks are rows of the
    arguments: stated over any blocks `x0`, `x1` that read the arguments `A`, `B` at row `r`. -/
theorem entry_eq (A : S8192x10.Idx → EReal) (B : S10x8192.Idx → EReal)
    (x0 : FVec Ideal S256x10 .f32) (x1 : FVec Ideal S10x8192 .f32) (r : Fin 8192) (p : Fin 256) (q : Fin 8192)
    (h0 : ∀ k : Fin 10, x0 (ix2 p k) = A (ix2 r k))
    (h1 : ∀ (k : Fin 10) (q' : Fin 8192), x1 (ix2 k q') = B (ix2 k q')) :
    k0_pay1 (F := Ideal) x0 x1 (ix2 p q) = Cert.Softmax.G A B (ix2 r q) := by
  rw [Cert.KernelIdeal.Row.pay_apply, Cert.Softmax.G_ix2]
  unfold Cert.Softmax.rowSoftmax Cert.Softmax.score
  simp only [h0, h1]

/-- WHAT POINT `t` WRITES BACK is block `t` of `G` of the two arguments. -/
theorem flushed_eq (c : Dev nD) (t : Fin cfg0.N) :
    (dats m 0 c).flushed 2 t
      = ((cfg0.win 2).blk t).view.read (Elt Ideal) (Cert.Softmax.G (V m c main_arg0) (V m c main_arg1)) := by
  rw [Cert.KernelIdeal.Value.flushed2]
  unfold out0_2
  rw [View.canon_unit_zero offsets_zero]
  simp only [View.ld_unit_zero (S := S256x10) offsets_zero, View.ld_unit_zero (S := S10x8192) offsets_zero]
  obtain ⟨-, -, -, -, e4, e5⟩ := block_index t
  have hN : cfg0.N = 32 := N_0
  have ht : t.val < 32 := by have := t.isLt; omega
  funext j
  obtain ⟨p, q, rfl⟩ : ∃ (p : Fin 256) (q : Fin 8192), j = ix2 p q := ⟨j 0, j 1, eq_ix2 j⟩
  have hr : t.val * 256 + p.val < 8192 := by have := p.isLt; omega
  show k0_pay1 (F := Ideal) (iblk m c 0 t) (iblk m c 1 t) (ix2 p q)
    = Cert.Softmax.G (V m c main_arg0) (V m c main_arg1) (((cfg0.win 2).blk t).view.emb (ix2 p q))
  refine (entry_eq (V m c main_arg0) (V m c main_arg1) (iblk m c 0 t) (iblk m c 1 t) ⟨t.val * 256 + p.val, hr⟩ p q
    (fun k => blockA_apply m c t p k _ rfl) (fun k q' => blockB_apply m c t k q')).trans ?_
  refine congrArg (Cert.Softmax.G (V m c main_arg0) (V m c main_arg1)) (funext fun a => Fin.ext ?_)
  match a with
  | ⟨0, _⟩ => show t.val * 256 + p.val = win0_2.index t (0 : Fin 2) * 256 + 1 * p.val; rw [e4]; omega
  | ⟨1, _⟩ => show q.val = win0_2.index t (1 : Fin 2) * 8192 + 1 * q.val; rw [e5]; omega

/-- An index of the result array is in point `t`'s block iff each coordinate is in the block's range. -/
theorem mem_blk (t : Fin cfg0.N) (i : S8192x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v0).slice (win0_2.rect t)).set ↔ _
  rw [View.set_slice_whole, Rect.mem_set_unit]
  exact Iff.rfl

/-- Every index of the result array lies in some point's block: row `r` in block `r / 256`. -/
theorem covered (i : S8192x8192.Idx) :
    ∃ t : Fin cfg0.N, (cfg0.win 2).flush t = true ∧ i ∈ ((cfg0.win 2).blk t).view.set := by
  have hN : cfg0.N = 32 := N_0
  have hi0 : (i 0).val < 8192 := (i 0).isLt
  have hi1 : (i 1).val < 8192 := (i 1).isLt
  obtain ⟨t, ht⟩ : ∃ t : Fin cfg0.N, t.val = (i 0).val / 256 := ⟨⟨(i 0).val / 256, by omega⟩, rfl⟩
  obtain ⟨-, -, -, -, e4, e5⟩ := block_index t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    rw [e4, ht]; omega
  | ⟨1, _⟩ =>
    show win0_2.index t (1 : Fin 2) * 8192 ≤ (i 1).val ∧ (i 1).val < win0_2.index t (1 : Fin 2) * 8192 + 8192
    rw [e5]; omega

/-- THE RESULT ARRAY after the run is `G` of the two arguments. -/
theorem final (c : Dev nD) :
    (dats m 0 c).arrAt 2 cfg0.N
      = Cert.Softmax.G (m ((c : Thread nD τ).loc main_arg0)) (m ((c : Thread nD τ).loc main_arg1)) :=
  (dats m 0 c).arrAt_eq_of_cover 2 (Cert.Softmax.G (V m c main_arg0) (V m c main_arg1))
    (fun t _ => flushed_eq m c t) covered

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0)
        = Cert.Softmax.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.LibRealOps.lean ====
import Idealize.ShloMosaic.PureOps.Ideal
import Idealize.ShloMosaic.PureOps.Ideal.Laws
import Idealize.ShloMosaic.PureOps.IdealRules

/-!
# Real-valued arrays are closed under the whole-array operations

At the ideal instance a float array is a function into the extended reals. An array is
*all real* when every entry is (the image of) a real number. This file shows that the
elementwise arithmetic, the re-indexings (broadcast, gather), the finite sums (scatter-add,
dot products) and the quotient 1 / max(y, 1) keep an array all real: a finite sum or a
product of reals is a real, the maximum of two reals is a real, and a quotient of reals with a
nonzero denominator is a real.
-/

open Idealize Idealize.ShloMosaic

namespace Cert.Proof.RealOps

/-- Every entry of the array is a real number. -/
def AllReal {ι : Type*} (f : ι → EReal) : Prop := ∀ i, ∃ r : ℝ, f i = (r : EReal)

/-! ### Scalars: sums, products, maxima and finite sums of reals are reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  exact ⟨max x y, (EReal.coe_strictMono.monotone.map_max).symm⟩

/-- A finite sum of reals is a real: by induction on the index set, one summand at a time. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih fun i hi => h i (Finset.mem_insert_of_mem hi))

/-! ### 1. Elementwise arithmetic -/

theorem AllReal.addf {s : Shape} {x y : FVec Ideal s .f32} (hx : AllReal x) (hy : AllReal y) :
    AllReal (ShloMosaic.addf x y) := fun i => real_add (hx i) (hy i)

theorem AllReal.subf {s : Shape} {x y : FVec Ideal s .f32} (hx : AllReal x) (hy : AllReal y) :
    AllReal (ShloMosaic.subf x y) := fun i => real_sub (hx i) (hy i)

theorem AllReal.mulf {s : Shape} {x y : FVec Ideal s .f32} (hx : AllReal x) (hy : AllReal y) :
    AllReal (ShloMosaic.mulf x y) := fun i => real_mul (hx i) (hy i)

theorem AllReal.maximumf {s : Shape} {x y : FVec Ideal s .f32} (hx : AllReal x) (hy : AllReal y) :
    AllReal (ShloMosaic.maximumf x y) := fun i => real_max (hx i) (hy i)

/-! ### 2. Re-indexings: the result reads the operand at some index -/

theorem AllReal.broadcastInDim {s t : Shape} (dims : Fin s.rank → Fin t.rank) (h : s.BroadcastsInDim t dims)
    {x : FVec Ideal s .f32} (hx : AllReal x) : AllReal (ShloMosaic.broadcastInDim t dims h x) :=
  fun _ => hx _

theorem AllReal.gather {s si t : Shape} {w : Nat} (d : GatherDims s si t) {x : FVec Ideal s .f32} (idx : IVec si w)
    (hx : AllReal x) : AllReal (Host.gather d x idx) :=
  fun _ => hx _

/-! ### 3. Scatter-add: the operand's entry plus a finite sum of update entries -/

theorem AllReal.scatterAdd {s si u : Shape} {w : Nat} (d : ScatterDims s si u) {x : FVec Ideal s .f32}
    (idx : IVec si w) {upd : FVec Ideal u .f32} (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-! ### 4. Dot products: a finite sum of products -/

theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := by
  intro j
  show ∃ q : ℝ, FloatOps.dotGeneral d prec .single l r j = (q : EReal)
  rw [Ideal.dotGeneral_apply]
  exact real_sum _ _ fun k _ => real_mul (hl _) (hr _)

/-- With any all-real accumulator. -/
theorem AllReal.matmul_acc {sl sr so : Shape} (d : DotDims sl sr so) (prec : Option ContractPrecision)
    {l : FVec Ideal sl .f32} {r : FVec Ideal sr .f32} {acc : FVec Ideal so .f32}
    (hl : AllReal l) (hr : AllReal r) (hacc : AllReal acc) :
    AllReal (FloatOps.matmul d prec l r acc) := by
  intro j
  rw [Ideal.matmul_apply]
  exact real_add (hacc j) (real_sum _ _ fun k _ => real_mul (hl _) (hr _))

theorem AllReal.matmul {sl sr so : Shape} (d : DotDims sl sr so) (prec : Option ContractPrecision)
    {l : FVec Ideal sl .f32} {r : FVec Ideal sr .f32} (hl : AllReal l) (hr : AllReal r) :
    AllReal (FloatOps.matmul d prec l r (constant so .f32 0x00000000#32)) := by
  intro j
  rw [Ideal.matmul_constant_zero_apply]
  exact real_sum _ _ fun k _ => real_mul (hl _) (hr _)

/-! ### 5. The constants 0 and 1 -/

/-- The pattern of the float 1.0 denotes the extended real 1. -/
theorem ofBits_one_f32 : Ideal.ofBits .f32 0x3F800000#32 = 1 := IdealRules.sign_bit.ideal_onePat .f32

theorem constant_zero_apply (S : Shape) (i : S.Idx) : constant (F := Ideal) S .f32 0x00000000#32 i = 0 :=
  Ideal.ofBits_zero_f32

theorem constant_one_apply (S : Shape) (i : S.Idx) : constant (F := Ideal) S .f32 0x3F800000#32 i = 1 :=
  ofBits_one_f32

theorem AllReal.constant_zero (S : Shape) : AllReal (constant (F := Ideal) S .f32 0x00000000#32) :=
  fun i => ⟨0, by rw [constant_zero_apply, EReal.coe_zero]⟩

theorem AllReal.constant_one (S : Shape) : AllReal (constant (F := Ideal) S .f32 0x3F800000#32) :=
  fun i => ⟨1, by rw [constant_one_apply, EReal.coe_one]⟩

/-! ### 6. The reciprocal degree 1 / max(y, 1) -/

/-- A quotient of reals with a nonzero denominator is a real. -/
theorem real_div {a b : EReal} (ha : ∃ r : ℝ, a = (r : EReal)) (hb : ∃ r : ℝ, b = (r : EReal)) (h0 : b ≠ 0) :
    ∃ r : ℝ, Ideal.div a b = (r : EReal) := by
  obtain ⟨x, rfl⟩ := ha; obtain ⟨y, rfl⟩ := hb
  have hy : y ≠ 0 := fun h => h0 (by rw [h, EReal.coe_zero])
  exact ⟨x * (1 / y), by rw [Ideal.div_coe hy, EReal.coe_mul]⟩

/-- Elementwise division by an all-real array with no zero entry. -/
theorem AllReal.hostDivf {s : Shape} {x y : FVec Ideal s .f32} (hx : AllReal x) (hy : AllReal y)
    (h0 : ∀ i, y i ≠ 0) : AllReal (Host.divf (F := Ideal) x y) :=
  fun i => real_div (hx i) (hy i) (h0 i)

/-- For a real r the maximum of r and 1 is the real max r 1, which is at least 1 and so not zero:
    the quotient 1 / max(r, 1) is the real 1 / max r 1. -/
theorem div_one_max_one (r : ℝ) : Ideal.div 1 (max (r : EReal) 1) = ((1 / max r 1 : ℝ) : EReal) := by
  have h1 : max (r : EReal) 1 = ((max r 1 : ℝ) : EReal) := by
    rw [← EReal.coe_one]; exact (EReal.coe_strictMono.monotone.map_max).symm
  have hne : max r 1 ≠ 0 := ne_of_gt (lt_of_lt_of_le one_pos (le_max_right r 1))
  rw [h1, Ideal.div_coe hne, one_mul]

/-- The value of the reciprocal degree at an index where y is the real r. -/
theorem recipDeg_apply {s0 s : Shape} (dims : Fin s0.rank → Fin s.rank) (hb : s0.BroadcastsInDim s dims)
    (y : FVec Ideal s .f32) (i : s.Idx) {r : ℝ} (hr : y i = (r : EReal)) :
    Host.divf (F := Ideal) (ShloMosaic.broadcastInDim s dims hb (constant s0 .f32 0x3F800000#32))
        (ShloMosaic.maximumf y (ShloMosaic.broadcastInDim s dims hb (constant s0 .f32 0x3F800000#32))) i
      = ((1 / max r 1 : ℝ) : EReal) := by
  show Ideal.div (Ideal.ofBits .f32 0x3F800000#32) (max (y i) (Ideal.ofBits .f32 0x3F800000#32)) = _
  rw [ofBits_one_f32, hr, div_one_max_one]

theorem AllReal.recipDeg {s0 s : Shape} (dims : Fin s0.rank → Fin s.rank) (hb : s0.BroadcastsInDim s dims)
    {y : FVec Ideal s .f32} (hy : AllReal y) :
    AllReal (Host.divf (F := Ideal) (ShloMosaic.broadcastInDim s dims hb (constant s0 .f32 0x3F800000#32))
      (ShloMosaic.maximumf y (ShloMosaic.broadcastInDim s dims hb (constant s0 .f32 0x3F800000#32)))) := by
  intro i
  obtain ⟨r, hr⟩ := hy i
  exact ⟨1 / max r 1, recipDeg_apply dims hb y i hr⟩

/-- The literal instance: the scalar 1 broadcast from the rank-zero shape. -/
example {s : Shape} (hb : (⟨0, ![]⟩ : Shape).BroadcastsInDim s ![]) {y : FVec Ideal s .f32} (hy : AllReal y) :
    AllReal (Host.divf (F := Ideal) (ShloMosaic.broadcastInDim s ![] hb (constant (⟨0, ![]⟩ : Shape) .f32 0x3F800000#32))
      (ShloMosaic.maximumf y (ShloMosaic.broadcastInDim s ![] hb (constant (⟨0, ![]⟩ : Shape) .f32 0x3F800000#32)))) := by
  apply AllReal.recipDeg; exact hy

/-! ### 7. The log-softmax identity on reals

For real entries a k, the row maximum M (a fold of max from ⊥ over a nonempty index set) is a
real, the sum S of the exponentials exp (a k - M) is a positive real, so log S is a real; and on
reals  x - (M + L) = (x - M) - L,  while max ⊥ M = M. -/

/-- The coercion of a finite sum of reals is the sum of the coercions. -/
theorem coe_sum_real {ι : Type*} (t : Finset ι) (g : ι → ℝ) :
    ∑ i ∈ t, ((g i : ℝ) : EReal) = ((∑ i ∈ t, g i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The fold of max from ⊥ over a nonempty finite set of reals is a real: the first element
    absorbs ⊥, and each further step is a maximum of two reals. -/
theorem real_fold_max {ι : Type*} (t : Finset ι) (f : ι → EReal) (h : ∀ i ∈ t, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a s ha ih =>
    rw [Finset.fold_insert ha]
    rcases s.eq_empty_or_nonempty with rfl | hs
    · rw [Finset.fold_empty, max_bot_right]; exact h a (Finset.mem_insert_self a _)
    · exact real_max (h a (Finset.mem_insert_self a _)) (ih (fun i hi => h i (Finset.mem_insert_of_mem hi)) hs)

/-- The logarithm of a positive real is a real. -/
theorem log_coe_of_pos {σ : ℝ} (h : 0 < σ) : Ideal.log (σ : EReal) = ((Real.log σ : ℝ) : EReal) := by
  rw [Ideal.log_coe, if_neg (not_le.mpr h)]

/-- On reals, subtracting a sum is subtracting twice; and ⊥ is neutral for max. -/
theorem sub_add_eq_sub_max_bot_sub {x m l : EReal} (hx : ∃ r : ℝ, x = (r : EReal)) (hm : ∃ r : ℝ, m = (r : EReal))
    (hl : ∃ r : ℝ, l = (r : EReal)) : x - (m + l) = (x - max ⊥ m) - l := by
  obtain ⟨x, rfl⟩ := hx; obtain ⟨m, rfl⟩ := hm; obtain ⟨l, rfl⟩ := hl
  rw [max_bot_left, ← EReal.coe_add, ← EReal.coe_sub, ← EReal.coe_sub, ← EReal.coe_sub, sub_add_eq_sub_sub]

section LogSoftmax
variable {ι : Type*} [Fintype ι] [Nonempty ι]

/-- The row maximum is a real. -/
theorem real_rowMax {a : ι → EReal} (ha : AllReal a) :
    ∃ m : ℝ, Finset.univ.fold max (⊥ : EReal) a = (m : EReal) :=
  real_fold_max Finset.univ a (fun i _ => ha i) Finset.univ_nonempty

/-- The sum of the exponentials of the entries shifted by a real is a positive real. -/
theorem real_sumExp_pos {a : ι → EReal} (ha : AllReal a) {M : EReal} (hM : ∃ m : ℝ, M = (m : EReal)) :
    ∃ σ : ℝ, 0 < σ ∧ ∑ k, Ideal.exp (a k - M) = (σ : EReal) := by
  obtain ⟨m, rfl⟩ := hM
  choose r hr using ha
  refine ⟨∑ k, Real.exp (r k - m), Finset.sum_pos (fun k _ => Real.exp_pos _) Finset.univ_nonempty, ?_⟩
  rw [← coe_sum_real]
  exact Finset.sum_congr rfl fun k _ => by rw [hr k, ← EReal.coe_sub, Ideal.exp_coe]

/-- Its logarithm is a real. -/
theorem real_logSumExp {a : ι → EReal} (ha : AllReal a) {M : EReal} (hM : ∃ m : ℝ, M = (m : EReal)) :
    ∃ l : ℝ, Ideal.log (∑ k, Ideal.exp (a k - M)) = (l : EReal) := by
  obtain ⟨σ, hσ, hS⟩ := real_sumExp_pos ha hM
  exact ⟨Real.log σ, by rw [hS, log_coe_of_pos hσ]⟩

/-- The log-softmax identity, with the row maximum and the sum of exponentials spelled out. -/
theorem logSoftmax_eq {a : ι → EReal} (ha : AllReal a) (j : ι) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  sub_add_eq_sub_max_bot_sub (ha j) (real_rowMax ha) (real_logSumExp ha (real_rowMax ha))

end LogSoftmax

/-- The instance at rows of 47 entries. -/
example (a : Fin 47 → EReal) (ha : AllReal a) (j : Fin 47) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  logSoftmax_eq ha j

/-! ### The lemmas fire by apply on the forms a program states -/

example {s si u : Shape} {w : Nat} (d : ScatterDims s si u) (x : FVec Ideal s .f32) (idx : IVec si w)
    (upd : FVec Ideal u .f32) (hx : AllReal x) (hu : AllReal upd) : AllReal (Host.scatterAdd d x idx upd) := by
  apply AllReal.scatterAdd <;> assumption

example {sl sr so : Shape} (d : DotDims sl sr so) (l : FVec Ideal sl .f32) (r : FVec Ideal sr .f32)
    (hl : AllReal l) (hr : AllReal r) : AllReal (Host.dotGeneral d none l r) := by
  apply AllReal.dotGeneral <;> assumption

example {sl sr so : Shape} (d : DotDims sl sr so) (l : FVec Ideal sl .f32) (r : FVec Ideal sr .f32)
    (hl : AllReal l) (hr : AllReal r) : AllReal (ShloMosaic.matmul d none l r (constant so .f32 0x00000000#32)) := by
  apply AllReal.matmul <;> assumption

example {s : Shape} (hb : (⟨0, ![]⟩ : Shape).BroadcastsInDim s ![]) :
    AllReal (ShloMosaic.broadcastInDim s ![] hb (constant (F := Ideal) (⟨0, ![]⟩ : Shape) .f32 0x00000000#32)) := by
  apply AllReal.broadcastInDim; apply AllReal.constant_zero

example {s si t : Shape} {w : Nat} (d : GatherDims s si t) (x y : FVec Ideal s .f32) (idx : IVec si w)
    (hx : AllReal x) (hy : AllReal y) : AllReal (Host.gather d (ShloMosaic.mulf (ShloMosaic.addf x y) (ShloMosaic.maximumf x y)) idx) := by
  apply AllReal.gather; apply AllReal.mulf
  · exact AllReal.addf hx hy
  · exact AllReal.maximumf hx hy

end Cert.Proof.RealOps
-- ==== Proof.SoftmaxLaw.lean ====
import proofs.«112167_j73349451481729_1_alg».proof.Proof.LibRealOps

/-!
# A row's softmax does not see a common real shift

For a nonempty finite row of real numbers `s` and any real `M`,

  exp (s j - M) / Σ_k exp (s k - M) = exp (s j) / Σ_k exp (s k),

because `exp (s k - M) = exp (s k) · exp (-M)` and the positive factor `exp (-M)` cancels between the
numerator and the denominator. The row maximum that a numerically careful softmax subtracts is one such `M`.
The statement is over the extended reals with every entry (the image of) a real, which is where both
quotients are honest real quotients: each sum of exponentials is a positive real, so neither denominator is
zero or infinite.
-/

noncomputable section

namespace Cert.Softmax

open Idealize Idealize.ShloMosaic Cert.Proof.RealOps

variable {ι : Type*} [Fintype ι] [Nonempty ι]

/-- The law on the reals: the common factor `exp (-m)` cancels. -/
theorem real_shift (r : ι → ℝ) (m : ℝ) (j : ι) :
    Real.exp (r j - m) * (1 / ∑ k, Real.exp (r k - m)) = Real.exp (r j) * (1 / ∑ k, Real.exp (r k)) := by
  have hpos : 0 < ∑ k, Real.exp (r k) := Finset.sum_pos (fun k _ => Real.exp_pos _) Finset.univ_nonempty
  have hm : Real.exp m ≠ 0 := (Real.exp_pos m).ne'
  have hsum : ∑ k, Real.exp (r k - m) = (∑ k, Real.exp (r k)) / Real.exp m := by
    rw [Finset.sum_div]; exact Finset.sum_congr rfl fun k _ => Real.exp_sub _ _
  rw [hsum, Real.exp_sub]
  field_simp

/-- A sum of exponentials of reals is a positive real, hence not zero. -/
theorem sumExp_ne_zero (r : ι → ℝ) : (∑ k, Real.exp (r k)) ≠ 0 :=
  (Finset.sum_pos (fun k _ => Real.exp_pos _) Finset.univ_nonempty).ne'

/-- The law on the extended reals, for a row of reals and a real shift; the shifted denominator may carry the
    zero a summation starts from. -/
theorem softmax_shift {s : ι → EReal} (hs : AllReal s) {M : EReal} (hM : ∃ m : ℝ, M = (m : EReal)) (j : ι) :
    Ideal.div (Ideal.exp (s j - M)) (0 + ∑ k, Ideal.exp (s k - M))
      = Ideal.div (Ideal.exp (s j)) (∑ k, Ideal.exp (s k)) := by
  obtain ⟨m, rfl⟩ := hM
  choose r hr using hs
  have e1 : ∀ k, Ideal.exp (s k - (m : EReal)) = ((Real.exp (r k - m) : ℝ) : EReal) := fun k => by
    rw [hr k, ← EReal.coe_sub, Ideal.exp_coe]
  have e2 : ∀ k, Ideal.exp (s k) = ((Real.exp (r k) : ℝ) : EReal) := fun k => by
    rw [hr k, Ideal.exp_coe]
  rw [Finset.sum_congr rfl (fun k _ => e1 k), Finset.sum_congr rfl (fun k _ => e2 k), e1 j, e2 j,
    coe_sum_real, coe_sum_real, zero_add,
    Ideal.div_coe (sumExp_ne_zero fun k => r k - m), Ideal.div_coe (sumExp_ne_zero r),
    ← EReal.coe_mul, ← EReal.coe_mul, real_shift]

end Cert.Softmax

end
-- ==== Proof.RefRow.lean ====
import proofs.«112167_j73349451481729_1_alg».proof.Proof.Gen.ReferenceIdeal.Read
import proofs.«112167_j73349451481729_1_alg».proof.Proof.SoftmaxLaw
import proofs.«112167_j73349451481729_1_alg».proof.Proof.Spec
import proofs.«112167_j73349451481729_1_alg».proof.Proof.LibRealOps
import Idealize.ShloMosaic.PureOps.Reduce
import Idealize.ShloMosaic.PureOps.Ideal.Laws

/-!
# The reference, entry by entry, and why it is the unshifted softmax on real arguments

The reference rectifies the matrix product, takes each row's maximum `M r` (folded from `-∞`, then once more
joined with `-∞`), and returns `exp (score r c - M r) / (0 + Σ_c' exp (score r c' - M r))`. When both arguments are
all real, every score is a real and so is `M r` (a maximum over 8192 reals), and the common shift `M r` drops out
of the quotient: the reference's entry is `exp (score r c) / Σ_c' exp (score r c')`.
-/

noncomputable section

namespace Cert.ReferenceIdeal.Row

open Cert.ReferenceIdeal Cert.ReferenceIdeal.Gen Cert.ReferenceIdeal.Read
open Idealize Idealize.ShloMosaic Idealize.ShloMosaic.ValueIdx Cert.Proof.RealOps Cert.Softmax

variable (A : FVec Ideal S8192x10 .f32) (B : FVec Ideal S10x8192 .f32)

/-- The pattern of the float `-∞` denotes the bottom of the extended reals. -/
theorem ofBits_neg_inf : Ideal.ofBits .f32 0xFF800000#32 = ⊥ := by simp [Ideal.ofBits, Ideal.ieee]

/-- The rectified product at `(r, c)` is the score. -/
theorem relu_at (r c : Fin 8192) : val_main_v1 (F := Ideal) A B (ix2 r c) = score A B r c := by
  rw [val_main_v1_apply, val_main_v0_apply, val_main_call0_v0_apply, val_main_call0_cst_apply]
  have el : ∀ k : Fin 10, lidx_main_v0 (ix2 r c) k = ix2 r k := fun k => funext fun a => Fin.ext (by
    match a with
    | ⟨0, _⟩ => rfl
    | ⟨1, _⟩ => rfl)
  have er : ∀ k : Fin 10, ridx_main_v0 (ix2 r c) k = ix2 k c := fun k => funext fun a => Fin.ext (by
    match a with
    | ⟨0, _⟩ => rfl
    | ⟨1, _⟩ => rfl)
  simp only [el, er]
  rfl

/-- Row `r`'s maximum score, folded from `-∞`. -/
def rowMax (r : Fin 8192) : EReal := Finset.univ.fold max (⊥ : EReal) (fun c : Fin 8192 => score A B r c)

/-- The reduction over the columns at `r` is that fold. -/
theorem reduceMax_at (r : Fin 8192) : val_main_v2 (F := Ideal) A B (ix1 r) = rowMax A B r := by
  unfold val_main_v2
  have hred : S8192x8192.Reduces [1] S8192 := by decide
  refine (Host.reduce_eq_fold_single (α := Ideal .f32) (FloatOps.maximumf (F := Ideal) (φ := .f32)) (val_main_v1 (F := Ideal) A B) (val_main_cst (F := Ideal))
    Facts₀.reducesTo_S8192x8192_S8192_d1 hred Facts₀.h_S_ (ix1 r)).trans ?_
  have e0 : val_main_cst (F := Ideal) (Shape.Idx.first Facts₀.h_S_) = ⊥ := ofBits_neg_inf
  have e1 : (val_main_v1 (F := Ideal) A B ∘ hred.lift (ix1 r)) = fun c : Fin 8192 => score A B r c := funext fun c => by
    show val_main_v1 (F := Ideal) A B (hred.lift (ix1 r) c) = _
    have hl : hred.lift (ix1 r) c = ix2 r c := funext fun a => Fin.ext (by
      match a with
      | ⟨0, _⟩ => rfl
      | ⟨1, _⟩ => rfl)
    rw [hl]; exact relu_at A B r c
  rw [e0, e1]
  rfl

/-- The shift the reference subtracts in row `r`. -/
theorem shift_at (r : Fin 8192) : val_main_v4 (F := Ideal) A B (ix1 r) = max ⊥ (rowMax A B r) := by
  rw [val_main_v4_apply, val_main_v3_apply, val_main_cst_0_apply, reduceMax_at]
  show max (Ideal.ofBits .f32 0xFF800000#32) _ = _
  rw [ofBits_neg_inf]

/-- The shifted exponential at `(r, c)`. -/
theorem exp_at (r c : Fin 8192) :
    val_main_v8 (F := Ideal) A B (ix2 r c) = Ideal.exp (score A B r c - max ⊥ (rowMax A B r)) := by
  rw [val_main_v8_apply, val_main_v7_apply, val_main_v6_apply, val_main_v5_apply, relu_at]
  have e : idx_main_v5 (idx_main_v6 (ix2 r c)) = ix1 r := funext fun a => Fin.ext (by
    match a with
    | ⟨0, _⟩ => rfl)
  rw [e, shift_at]
  rfl

/-- The row sum of the shifted exponentials at `r`, from the zero the summation starts at. -/
theorem sum_at (r : Fin 8192) :
    val_main_v9 (F := Ideal) A B (ix1 r) = 0 + ∑ c : Fin 8192, Ideal.exp (score A B r c - max ⊥ (rowMax A B r)) := by
  rw [val_main_v9_apply, val_main_cst_1_apply]
  have e : ∀ k : Fin 8192, idx_main_v9 (ix1 r) k = ix2 r k := fun k => funext fun a => Fin.ext (by
    match a with
    | ⟨0, _⟩ => rfl
    | ⟨1, _⟩ => rfl)
  simp only [e, exp_at]
  show Ideal.ofBits .f32 0x00000000#32 + _ = _
  rw [Ideal.ofBits_zero_f32]

/-- The reference's result at `(r, c)`. -/
theorem result_at (r c : Fin 8192) :
    val_main_v12 (F := Ideal) A B (ix2 r c)
      = Ideal.div (Ideal.exp (score A B r c - max ⊥ (rowMax A B r)))
          (0 + ∑ c' : Fin 8192, Ideal.exp (score A B r c' - max ⊥ (rowMax A B r))) := by
  rw [val_main_v12_apply, val_main_v11_apply, val_main_v10_apply, exp_at]
  have e : idx_main_v10 (idx_main_v11 (ix2 r c)) = ix1 r := funext fun a => Fin.ext (by
    match a with
    | ⟨0, _⟩ => rfl)
  rw [e, sum_at]
  rfl

/-! ## On real arguments -/

/-- A score of real arguments is a real: a finite sum of products of reals, joined with zero. -/
theorem score_real (hA : AllReal A) (hB : AllReal B) (r c : Fin 8192) : ∃ x : ℝ, score A B r c = (x : EReal) := by
  unfold score
  exact real_max (real_sum _ _ fun k _ => real_mul (hA _) (hB _)) ⟨0, by rw [Ideal.ofBits_zero_f32, EReal.coe_zero]⟩

/-- The shift of a row of real scores is a real: `-∞` is neutral for the maximum, and the maximum of 8192 reals
    is one of them. -/
theorem shift_real (hA : AllReal A) (hB : AllReal B) (r : Fin 8192) : ∃ x : ℝ, max ⊥ (rowMax A B r) = (x : EReal) := by
  rw [max_bot_left]
  exact real_fold_max Finset.univ (fun c : Fin 8192 => score A B r c) (fun c _ => score_real A B hA hB r c)
    Finset.univ_nonempty

/-- THE REFERENCE IS `G` on real arguments. -/
theorem ref_eq (hA : AllReal A) (hB : AllReal B) : val_main_v12 (F := Ideal) A B = Cert.Softmax.G A B := by
  funext i
  obtain ⟨r, c, rfl⟩ : ∃ (r c : Fin 8192), i = ix2 r c := ⟨i 0, i 1, eq_ix2 i⟩
  rw [result_at, G_ix2]
  unfold rowSoftmax
  exact softmax_shift (s := fun c : Fin 8192 => score A B r c) (fun c => score_real A B hA hB r c)
    (shift_real A B hA hB r) c

end Cert.ReferenceIdeal.Row

end
-- ==== Proof.Finite.lean ====
import proofs.«112167_j73349451481729_1_alg».proof.Pre_finite_inputs
import proofs.«112167_j73349451481729_1_alg».proof.Proof.Gen.Pre_finite_inputs
import proofs.«112167_j73349451481729_1_alg».proof.Proof.LibRealOps
import Idealize.ShloMosaic.Lib.ReduceAll
import Idealize.ShloMosaic.Lib.ValueIdx

/-!
# The precondition says every entry of both arguments is a real number

The precondition is `all (|A| < +∞) ∧ all (|B| < +∞)`. Over the extended reals `|x| = max x (-x)` is below
`+∞` exactly when `x` is neither `+∞` nor `-∞`, that is, when `x` is a real number.
-/

noncomputable section

namespace Cert.Finite

open Idealize Idealize.ShloMosaic Cert.Proof.RealOps

/-- The pattern of the float `+∞` denotes the top of the extended reals. -/
theorem ofBits_inf : Ideal.ofBits .f32 0x7F800000#32 = ⊤ := by simp [Ideal.ofBits, Ideal.ieee]

/-- An extended real whose absolute value is below `+∞` is a real. -/
theorem real_of_abs_lt_top {x : EReal} (h : max x (-x) < ⊤) : ∃ r : ℝ, x = (r : EReal) := by
  induction x using EReal.rec with
  | bot => rw [EReal.neg_bot, max_eq_right bot_le] at h; exact absurd h (lt_irrefl _)
  | coe r => exact ⟨r, rfl⟩
  | top => rw [max_eq_left le_top] at h; exact absurd h (lt_irrefl _)

/-- The comparison bit `|x| < +∞` being one says `x` is a real. -/
theorem real_of_cmp {x : EReal} (h : Ideal.cmp .olt (max x (-x)) (Ideal.ofBits .f32 0x7F800000#32) = 1#1) :
    ∃ r : ℝ, x = (r : EReal) := by
  rw [ofBits_inf] at h
  refine real_of_abs_lt_top ?_
  by_contra hn
  have : Ideal.cmp .olt (max x (-x)) ⊤ = 0#1 := by
    show BitVec.ofBool (decide (max x (-x) < ⊤)) = 0#1
    rw [decide_eq_false hn]; rfl
  rw [this] at h
  exact absurd h (by decide)

instance : Subsingleton Cert.Pre_finite_inputs.S_.Idx := ⟨fun a b => funext fun d => d.elim0⟩

/-- Under the precondition both argument arrays are all real. -/
theorem allReal_of_pre (A : FVec Ideal Cert.Pre_finite_inputs.S8192x10 .f32) (B : FVec Ideal Cert.Pre_finite_inputs.S10x8192 .f32)
    (h : Cert.Pre_finite_inputs.fn (F := Ideal) A B = fun _ => 1#1) : AllReal A ∧ AllReal B := by
  have h0 := congrFun h ValueIdx.ix0
  dsimp only [Cert.Pre_finite_inputs.fn] at h0
  obtain ⟨hA, hB⟩ := IntOp.andi_eq_one.1 h0
  exact ⟨fun i => real_of_cmp (Host.reduce_andi_all _ _ _ _ ValueIdx.ix0 hA i),
    fun i => real_of_cmp (Host.reduce_andi_all _ _ _ _ ValueIdx.ix0 hB i)⟩

end Cert.Finite

end
-- ==== Proof.lean ====
/- The claim: a fused kernel that, 256 rows at a time, forms `exp (relu (A · B))` and divides each row by its sum,
   against `softmax (relu (A · B))` computed with the usual subtraction of the row maximum.
   Over the extended reals both are, at every entry `(r, c)`,

     exp (score r c) / Σ_c' exp (score r c'),      score r c = max (Σ_k A (r, k) · B (k, c)) 0,

   provided the inputs are finite: then every score and every row maximum is a real number, each sum of
   exponentials is a positive real, and the common factor `exp (- max)` of the reference's numerator and
   denominator cancels (Proof/SoftmaxLaw.lean). Without finiteness the two differ (an infinite score makes the
   reference form `∞ - ∞`), so the precondition is used, once, to make both arguments all real
   (Proof/Finite.lean).
   The kernel's side: one grid point's stored block read entry by entry (Proof/KernelRow.lean), and the 32 row
   blocks assembled into the whole array (Proof/KernelArray.lean) as the function `G` of Proof/Spec.lean. The
   reference's side: its operations read entry by entry and identified with `G` on real arguments
   (Proof/RefRow.lean). The idealization rewrote nothing, so `preserves` is trivial; the three frames are the
   generated runs. -/
import proofs.«112167_j73349451481729_1_alg».proof.Defs
import proofs.«112167_j73349451481729_1_alg».proof.Proof.Gen.Kernel
import proofs.«112167_j73349451481729_1_alg».proof.Proof.Gen.Kernel.Skeleton
import proofs.«112167_j73349451481729_1_alg».proof.Proof.Gen.Kernel.Launch
import proofs.«112167_j73349451481729_1_alg».proof.Proof.Gen.Kernel.Points
import proofs.«112167_j73349451481729_1_alg».proof.Proof.Gen.Kernel.Frame
import proofs.«112167_j73349451481729_1_alg».proof.Proof.Gen.KernelIdeal
import proofs.«112167_j73349451481729_1_alg».proof.Proof.Gen.KernelIdeal.Skeleton
import proofs.«112167_j73349451481729_1_alg».proof.Proof.Gen.KernelIdeal.Launch
import proofs.«112167_j73349451481729_1_alg».proof.Proof.Gen.KernelIdeal.Points
import proofs.«112167_j73349451481729_1_alg».proof.Proof.Gen.KernelIdeal.Frame
import proofs.«112167_j73349451481729_1_alg».proof.Proof.Gen.ReferenceIdeal
import proofs.«112167_j73349451481729_1_alg».proof.Proof.Gen.Pre_finite_inputs
import proofs.«112167_j73349451481729_1_alg».proof.Proof.Gen.KernelIdeal.Value
import proofs.«112167_j73349451481729_1_alg».proof.Proof.Gen.ReferenceIdeal.Run
import proofs.«112167_j73349451481729_1_alg».proof.Proof.Gen.ReferenceIdeal.Read
import proofs.«112167_j73349451481729_1_alg».proof.Proof.KernelArray
import proofs.«112167_j73349451481729_1_alg».proof.Proof.RefRow
import proofs.«112167_j73349451481729_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the result array at `G` of the arguments: the kernel always, the reference because
    the precondition makes the arguments all real. -/
theorem algebraic : Cert.algebraic_KernelIdeal_ReferenceIdeal := by
  intro m ρ m' ρ' hpre hagree
  refine ⟨fun c => Cert.Softmax.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hB⟩ := Cert.Finite.allReal_of_pre _ _ (hpre c)
  rw [Cert.ReferenceIdeal.Read.val_main_v12_eq, (hagree c).1, (hagree c).2]
  exact Cert.ReferenceIdeal.Row.ref_eq _ _ hA hB

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
